-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v33)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S256x128 .f32) (main_arg9 : FVec F S128 .f32) (main_v33 : IVec S_ 1) : IVec S_ 1 :=
  let main_v34 : FVec F S256x128 .f32 := Host.absf main_arg8
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S256 .f32) (main_arg6 : FVec F S256x256 .f32) (main_arg7 : FVec F S256 .f32) (main_arg8 : FVec F S256x128 .f32) (main_arg9 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_v33

def fn {F : FTy → Type} [FloatOps F] (main_arg0 : FVec F S50000x128 .f32) (main_arg1 : IVec S2x640000 32) (main_arg2 : FVec F S128x256 .f32) (main_arg3 : FVec F S256 .f32) (main_arg4 : FVec F S256x256 .f32) (main_arg5 : FVec F S256 .f32) (main_arg6 : FVec F S256x256 .f32) (main_arg7 : FVec F S256 .f32) (main_arg8 : FVec F S256x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_arg8 main_arg9 main_v13 main_v16
-- ==== Kernel.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x256 : Shape := ⟨2, ![1, 256]⟩
abbrev S50000x256 : Shape := ⟨2, ![50000, 256]⟩
abbrev S2000x128 : Shape := ⟨2, ![2000, 128]⟩
abbrev S2000x256 : Shape := ⟨2, ![2000, 256]⟩
abbrev S640000x256 : Shape := ⟨2, ![640000, 256]⟩
abbrev S1x128 : Shape := ⟨2, ![1, 128]⟩

abbrev nBuf : Space → Nat
  | .hbm => 50
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S128x256, .bf16⟩
  | .hbm, ⟨28, _⟩ => ⟨S256x256, .bf16⟩
  | .hbm, ⟨29, _⟩ => ⟨S1x256, .f32⟩
  | .hbm, ⟨30, _⟩ => ⟨S1x256, .f32⟩
  | .hbm, ⟨31, _⟩ => ⟨S50000x256, .f32⟩
  | .hbm, ⟨32, _⟩ => ⟨S_, .i32⟩
  | .hbm, ⟨33, _⟩ => ⟨S640000, .i32⟩
  | .hbm, ⟨34, _⟩ => ⟨S640000, .i1⟩
  | .hbm, ⟨35, _⟩ => ⟨S_, .i32⟩
  | .hbm, ⟨36, _⟩ => ⟨S640000, .i32⟩
  | .hbm, ⟨37, _⟩ => ⟨S640000, .i32⟩
  | .hbm, ⟨38, _⟩ => ⟨S640000, .i32⟩
  | .hbm, ⟨39, _⟩ => ⟨S640000x1, .i32⟩
  | .hbm, ⟨40, _⟩ => ⟨S640000x256, .f32⟩
  | .hbm, ⟨41, _⟩ => ⟨S_, .f32⟩
  | .hbm, ⟨42, _⟩ => ⟨S50000x256, .f32⟩
  | .hbm, ⟨43, _⟩ => ⟨S640000x1, .i32⟩
  | .hbm, ⟨44, _⟩ => ⟨S50000x256, .f32⟩
  | .hbm, ⟨45, _⟩ => ⟨S256x256, .bf16⟩
  | .hbm, ⟨46, _⟩ => ⟨S256x128, .bf16⟩
  | .hbm, ⟨47, _⟩ => ⟨S1x256, .f32⟩
  | .hbm, ⟨48, _⟩ => ⟨S1x128, .f32⟩
  | .hbm, ⟨49, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S256x256, .bf16⟩
  | .local _ .vmem, ⟨15, _⟩ => ⟨S1x256, .f32⟩
  | .local _ .vmem, ⟨16, _⟩ => ⟨S256x128, .bf16⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_1 : Ref sig .tc := ⟨.hbm, 32, rfl⟩
abbrev main_v19 : Ref sig .tc := ⟨.hbm, 33, rfl⟩
abbrev main_v20 : Ref sig .tc := ⟨.hbm, 34, rfl⟩
abbrev main_c_2 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bitsLt_bf16_f32 : FTy.bits .bf16 < FTy.bits .f32
  shapeCasts_S256_S1x256 : S256.ShapeCasts S1x256
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S128_S1x128 : S128.ShapeCasts S1x128
  shapeCasts_S2000x256_S2000x256 : S2000x256.ShapeCasts S2000x256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S2000x128_S128x256_S2000x256_1_0_0_1_n_n_wf : DotDims.WF S2000x128 S128x256 S2000x256 [1] [0] [0] [1] [] []
  dot_S2000x256_S256x256_S2000x256_1_0_0_1_n_n_wf : DotDims.WF S2000x256 S256x256 S2000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S2000x256_S256x128_S2000x128_1_0_0_1_n_n_wf : DotDims.WF S2000x256 S256x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x256.size a ≤ S50000x256.size a
  hwx0_6 : ∀ i : grid0.Coords, EltTy.bits .f32 = 32 ∨ (Rect.block (s := S50000x256) S2000x256.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256x128.size a ≤ S256x128.size a
  hwx1_4 : ∀ i : grid1.Coords, EltTy.bits .bf16 = 32 ∨ (Rect.block (s := S256x128) S256x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v17) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v18) S2000x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v18) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S256x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S50000x256 : Shape := ⟨2, ![50000, 256]⟩
abbrev S1x256 : Shape := ⟨2, ![1, 256]⟩
abbrev S640000x256 : Shape := ⟨2, ![640000, 256]⟩
abbrev S1x128 : Shape := ⟨2, ![1, 128]⟩

abbrev nBuf : Space → Nat
  | .hbm => 67
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x640000, .i32⟩
  | .hbm, ⟨2, _⟩ => ⟨S128x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x128, .f32⟩
  | .hbm, ⟨9, _⟩ => ⟨S128, .f32⟩
  | .hbm, ⟨10, _⟩ => ⟨S1x640000, .i32⟩
  | .hbm, ⟨11, _⟩ => ⟨S640000, .i32⟩
  | .hbm, ⟨12, _⟩ => ⟨S1x640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i1⟩
  | .hbm, ⟨17, _⟩ => ⟨S_, .i32⟩
  | .hbm, ⟨18, _⟩ => ⟨S640000, .i32⟩
  | .hbm, ⟨19, _⟩ => ⟨S640000, .i32⟩
  | .hbm, ⟨20, _⟩ => ⟨S640000, .i32⟩
  | .hbm, ⟨21, _⟩ => ⟨S640000x1, .i32⟩
  | .hbm, ⟨22, _⟩ => ⟨S640000x128, .f32⟩
  | .hbm, ⟨23, _⟩ => ⟨S_, .f32⟩
  | .hbm, ⟨24, _⟩ => ⟨S50000x128, .f32⟩
  | .hbm, ⟨25, _⟩ => ⟨S640000x1, .i32⟩
  | .hbm, ⟨26, _⟩ => ⟨S50000x128, .f32⟩
  | .hbm, ⟨27, _⟩ => ⟨S50000x128, .f32⟩
  | .hbm, ⟨28, _⟩ => ⟨S50000x256, .f32⟩
  | .hbm, ⟨29, _⟩ => ⟨S1x256, .f32⟩
  | .hbm, ⟨30, _⟩ => ⟨S50000x256, .f32⟩
  | .hbm, ⟨31, _⟩ => ⟨S50000x256, .f32⟩
  | .hbm, ⟨32, _⟩ => ⟨S_, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S1x256, .f32⟩
  | .hbm, ⟨37, _⟩ => ⟨S50000x256, .f32⟩
  | .hbm, ⟨38, _⟩ => ⟨S50000x256, .f32⟩
  | .hbm, ⟨39, _⟩ => ⟨S_, .f32⟩
  | .hbm, ⟨40, _⟩ => ⟨S50000x256, .f32⟩
  | .hbm, ⟨41, _⟩ => ⟨S50000x256, .f32⟩
  | .hbm, ⟨42, _⟩ => ⟨S_, .i32⟩
  | .hbm, ⟨43, _⟩ => ⟨S640000, .i32⟩
  | .hbm, ⟨44, _⟩ => ⟨S640000, .i1⟩
  | .hbm, ⟨45, _⟩ => ⟨S_, .i32⟩
  | .hbm, ⟨46, _⟩ => ⟨S640000, .i32⟩
  | .hbm, ⟨47, _⟩ => ⟨S640000, .i32⟩
  | .hbm, ⟨48, _⟩ => ⟨S640000, .i32⟩
  | .hbm, ⟨49, _⟩ => ⟨S640000x1, .i32⟩
  | .hbm, ⟨50, _⟩ => ⟨S640000x256, .f32⟩
  | .hbm, ⟨51, _⟩ => ⟨S_, .f32⟩
  | .hbm, ⟨52, _⟩ => ⟨S50000x256, .f32⟩
  | .hbm, ⟨53, _⟩ => ⟨S640000x1, .i32⟩
  | .hbm, ⟨54, _⟩ => ⟨S50000x256, .f32⟩
  | .hbm, ⟨55, _⟩ => ⟨S50000x256, .f32⟩
  | .hbm, ⟨56, _⟩ => ⟨S50000x256, .f32⟩
  | .hbm, ⟨57, _⟩ => ⟨S1x256, .f32⟩
  | .hbm, ⟨58, _⟩ => ⟨S50000x256, .f32⟩
  | .hbm, ⟨59, _⟩ => ⟨S50000x256, .f32⟩
  | .hbm, ⟨60, _⟩ => ⟨S_, .f32⟩
  | .hbm, ⟨61, _⟩ => ⟨S50000x256, .f32⟩
  | .hbm, ⟨62, _⟩ => ⟨S50000x256, .f32⟩
  | .hbm, ⟨63, _⟩ => ⟨S50000x128, .f32⟩
  | .hbm, ⟨64, _⟩ => ⟨S1x128, .f32⟩
  | .hbm, ⟨65, _⟩ => ⟨S50000x128, .f32⟩
  | .hbm, ⟨66, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_c_3 : Ref sig .tc := ⟨.hbm, 42, rfl⟩
abbrev main_v27 : Ref sig .tc := ⟨.hbm, 43, rfl⟩
abbrev main_v28 : Ref sig .tc := ⟨.hbm, 44, rfl⟩
abbrev main_c_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_6 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S50000x256 : S_.BroadcastsInDim S50000x256 (![] : Fin 0 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  dot_S50000x128_S128x256_S50000x256_1_0_0_1_n_n_wf : DotDims.WF S50000x128 S128x256 S50000x256 [1] [0] [0] [1] [] []
  dot_S50000x256_S256x256_S50000x256_1_0_0_1_n_n_wf : DotDims.WF S50000x256 S256x256 S50000x256 [1] [0] [0] [1] [] []
  gather_S50000x256_S640000x1_S640000x256_1_0_n_n_0_1_1256_wf : GatherDims.WF S50000x256 S640000x1 S640000x256 [1] [0] [] [0] [] 1 ![1, 256]
  scatter_S50000x256_S640000x1_S640000x256_1_0_0_1_wf : ScatterDims.WF S50000x256 S640000x1 S640000x256 [1] [0] [0] 1
  dot_S50000x256_S256x128_S50000x128_1_0_0_1_n_n_wf : DotDims.WF S50000x256 S256x128 S50000x128 [1] [0] [0] [1] [] []

variable [Facts₀]

def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def gather_S50000x256_S640000x1_S640000x256_1_0_n_n_0_1_1256 : GatherDims S50000x256 S640000x1 S640000x256 where
  offsetDims := [1]
  collapsedSliceDims := [0]
  operandBatchingDims := []
  startIndicesBatchingDims := []
  startIndexMap := [0]
  indexVectorDim := 1
  sliceSizes := ![1, 256]
  wf := gather_S50000x256_S640000x1_S640000x256_1_0_n_n_0_1_1256_wf
def scatter_S50000x256_S640000x1_S640000x256_1_0_0_1 : ScatterDims S50000x256 S640000x1 S640000x256 where
  updateWindowDims := [1]
  insertedWindowDims := [0]
  scatterDimsToOperandDims := [0]
  indexVectorDim := 1
  wf := scatter_S50000x256_S640000x1_S640000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.LibPlainDot.lean ====
/-
  A plain matrix product, read at an entry, and its row blocks.

  For the dimension numbers of [M, K] × [K, N] → [M, N] (contract the left operand's axis 1 with the right operand's
  axis 0, no batch axis), both spellings of the product over the extended reals are the textbook sum: the host's
  `dot_general`, and the kernel's `tpu.matmul` into a zero accumulator, read at entry (r, c), are
  ∑ₖ A(r, k) · W(k, c) over k < K. Hence a block of B consecutive rows of the product of the long matrix is the
  product of that block of its rows with the same right factor: entry (off + p, c) of A · W is entry (p, c) of
  (rows off … off + B of A) · W. Nothing here needs the entries finite: no sum is reordered and no factor moved.
  General in M, K, N, the block height and the offset.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable {M K N : Nat} {φ₁ φ₂ : FTy}

/-- The dimension numbers of [M, K] × [K, N] → [M, N]. -/
abbrev dims (wf : DotDims.WF (⟨2, ![M, K]⟩ : Shape) ⟨2, ![K, N]⟩ ⟨2, ![M, N]⟩ [1] [0] [0] [1] [] []) :
    DotDims (⟨2, ![M, K]⟩ : Shape) ⟨2, ![K, N]⟩ ⟨2, ![M, N]⟩ where
  lhsContracting := [1]
  rhsContracting := [0]
  lhsNonContracting := [0]
  rhsNonContracting := [1]
  lhsBatch := []
  rhsBatch := []
  wf := wf

variable (wf : DotDims.WF (⟨2, ![M, K]⟩ : Shape) ⟨2, ![K, N]⟩ ⟨2, ![M, N]⟩ [1] [0] [0] [1] [] [])

/-- The left operand's index at output entry (r, c) and contraction index q: row r … -/
theorem lhs_row (r : Fin M) (c : Fin N) (q : (dims wf).contr.Idx) : ((dims wf).lhsIdx (ix2 r c) q 0).val = r.val := by
  unfold DotDims.lhsIdx
  rw [dif_neg (show ¬(0 : Fin 2) ∈ (dims wf).lhsBatch from List.not_mem_nil), dif_pos (show (0 : Fin 2) ∈ (dims wf).lhsNonContracting from List.mem_singleton.mpr rfl)]
  rfl

/-- … column q. -/
theorem lhs_col (r : Fin M) (c : Fin N) (q : (dims wf).contr.Idx) : ((dims wf).lhsIdx (ix2 r c) q 1).val = (q ⟨0, Nat.one_pos⟩).val :=
  (dims wf).lhsIdx_val_of_single rfl (ix2 r c) q

/-- The right operand's index there: row q … -/
theorem rhs_row (r : Fin M) (c : Fin N) (q : (dims wf).contr.Idx) : ((dims wf).rhsIdx (ix2 r c) q 0).val = (q ⟨0, Nat.one_pos⟩).val :=
  (dims wf).rhsIdx_val_of_single rfl (ix2 r c) q

/-- … column c. -/
theorem rhs_col (r : Fin M) (c : Fin N) (q : (dims wf).contr.Idx) : ((dims wf).rhsIdx (ix2 r c) q 1).val = c.val := by
  unfold DotDims.rhsIdx
  rw [dif_neg (show ¬(1 : Fin 2) ∈ (dims wf).rhsBatch from List.not_mem_nil), dif_pos (show (1 : Fin 2) ∈ (dims wf).rhsNonContracting from List.mem_singleton.mpr rfl)]
  rfl

/-- The sum over the dot's contraction index is the sum over k < K of A(r, k) · W(k, c). -/
theorem sum_contr (A : FVec Ideal ⟨2, ![M, K]⟩ φ₁) (W : FVec Ideal ⟨2, ![K, N]⟩ φ₂) (r : Fin M) (c : Fin N) :
    ∑ q : (dims wf).contr.Idx, A ((dims wf).lhsIdx (ix2 r c) q) * W ((dims wf).rhsIdx (ix2 r c) q)
      = ∑ k : Fin K, A (ix2 r k) * W (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 r c) ((contrEquiv1 (dims wf) K rfl rfl).symm k) = ix2 r k := funext fun a => Fin.ext (by
    match a with
    | ⟨0, _⟩ => exact lhs_row wf r c _
    | ⟨1, _⟩ => exact (lhs_col wf r c _).trans hk)
  have er : (dims wf).rhsIdx (ix2 r c) ((contrEquiv1 (dims wf) K rfl rfl).symm k) = ix2 k c := funext fun a => Fin.ext (by
    match a with
    | ⟨0, _⟩ => exact (rhs_row wf r c _).trans hk
    | ⟨1, _⟩ => exact rhs_col wf r c _)
  rw [el, er]

/-- The host's `dot_general` at entry (r, c): ∑ₖ A(r, k) · W(k, c). -/
theorem dotGeneral_apply (prec : Option ContractPrecision) (sched : HostSchedule)
    (A : FVec Ideal ⟨2, ![M, K]⟩ φ₁) (W : FVec Ideal ⟨2, ![K, N]⟩ φ₂) (r : Fin M) (c : Fin N) :
    FloatOps.dotGeneral (dims wf) prec sched A W (ix2 r c) = ∑ k : Fin K, A (ix2 r k) * W (ix2 k c) := by
  rw [Ideal.dotGeneral_apply]
  exact sum_contr wf A W r c

/-- The kernel's `tpu.matmul` into a zero accumulator at entry (r, c): the same sum. -/
theorem matmul_zero_apply (prec : Option ContractPrecision)
    (A : FVec Ideal ⟨2, ![M, K]⟩ φ₁) (W : FVec Ideal ⟨2, ![K, N]⟩ φ₂) (r : Fin M) (c : Fin N) :
    FloatOps.matmul (dims wf) prec A W (constant ⟨2, ![M, N]⟩ .f32 0x00000000#32) (ix2 r c) = ∑ k : Fin K, A (ix2 r k) * W (ix2 k c) := by
  rw [Ideal.matmul_constant_zero_apply]
  exact sum_contr wf A W r c

/-- ROW BLOCKS: entry (off + p, c) of the long product is entry (p, c) of the product of rows off … off + B of the
    left factor with the same right factor, the one a `dot_general`, the other a `tpu.matmul` into zero. -/
theorem dotGeneral_rows {B off : Nat} (hB : off + B ≤ M)
    (wfB : DotDims.WF (⟨2, ![B, K]⟩ : Shape) ⟨2, ![K, N]⟩ ⟨2, ![B, N]⟩ [1] [0] [0] [1] [] [])
    (prec prec' : Option ContractPrecision) (sched : HostSchedule)
    (A : FVec Ideal ⟨2, ![M, K]⟩ φ₁) (W : FVec Ideal ⟨2, ![K, N]⟩ φ₂) (p : Fin B) (c : Fin N) :
    FloatOps.dotGeneral (dims wf) prec sched A W (ix2 ⟨off + p.val, by have := p.isLt; omega⟩ c)
      = FloatOps.matmul (dims wfB) prec'
          (fun y : (⟨2, ![B, K]⟩ : Shape).Idx => A (ix2 ⟨off + (y 0).val, by have := idx2_lt0 y; omega⟩ (y 1)))
          W (constant ⟨2, ![B, N]⟩ .f32 0x00000000#32) (ix2 p c) := by
  rw [dotGeneral_apply, matmul_zero_apply]
  exact Finset.sum_congr rfl fun k _ => rfl

end Cert.LibPlainDot

end
-- ==== Proof.Spec.lean ====
/-
  One GIN convolution at an entry, over the extended reals.

  For node features X and neighbour sums AGG of shape [n, a], weights Wa [a, b] and Wb [b, c], and biases given as
  rows ba [1, b] and bb [1, c], the convolution's entry (r, q) is

      o(r, q) = (∑ₖ max( (∑ⱼ (X(r, j) + AGG(r, j)) · Wa(j, k)) + ba(k), 0 ) · Wb(k, q)) + bb(q),

  followed, when `relu` is set, by max(o, 0). It depends on row r of X and AGG only, which is why a block of rows of
  the result is the same function of that block of rows of X and AGG. The second part reads the two spellings of this
  arithmetic — a matrix product into a zero accumulator followed by a row broadcast of the bias, as a block body writes
  it — against this function, entry by entry: nothing is reordered, so nothing needs the entries finite.
  General in n, a, b, c.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«171460_j74483322847411_1_alg».proof.Proof.LibPlainDot

noncomputable section

namespace Cert.GinConv

open Idealize.ShloMosaic Idealize.ShloMosaic.ValueIdx

/-- The zero both programs clamp at (the f32 zero word, never evaluated). -/
abbrev zero : EReal := Ideal.ofBits .f32 0x00000000#32

/-- Entry of one convolution from the node's row `x`, its neighbour sum `agg`, the first layer's weights and bias, the
    second layer's column `Wb` and bias entry `bb`. -/
def convAt {a b : Nat} (relu : Bool) (x agg : Fin a → EReal) (Wa : Fin a → Fin b → EReal) (ba : Fin b → EReal)
    (Wb : Fin b → EReal) (bb : EReal) : EReal :=
  bif relu then max ((∑ k : Fin b, max ((∑ j : Fin a, (x j + agg j) * Wa j k) + ba k) zero * Wb k) + bb) zero
  else (∑ k : Fin b, max ((∑ j : Fin a, (x j + agg j) * Wa j k) + ba k) zero * Wb k) + bb

variable {n a b c : Nat} {φ₀ φ₁ φ₂ φ₃ φ₄ φ₅ : FTy}

/-- The convolution as an array [n, c] of its operands. -/
def conv (relu : Bool) (X : FVec Ideal ⟨2, ![n, a]⟩ φ₀) (AGG : FVec Ideal ⟨2, ![n, a]⟩ φ₁) (Wa : FVec Ideal ⟨2, ![a, b]⟩ φ₂)
    (ba : FVec Ideal ⟨2, ![1, b]⟩ φ₃) (Wb : FVec Ideal ⟨2, ![b, c]⟩ φ₄) (bb : FVec Ideal ⟨2, ![1, c]⟩ φ₅) :
    FVec Ideal ⟨2, ![n, c]⟩ .f32 :=
  fun i => convAt relu (fun j => X (ix2 (i 0) j)) (fun j => AGG (ix2 (i 0) j)) (fun j k => Wa (ix2 j k))
    (fun k => ba (ix2 (0 : Fin 1) k)) (fun k => Wb (ix2 k (i 1))) (bb (ix2 (0 : Fin 1) (i 1)))

/-- The convolution at (r, q), spelt out. -/
theorem conv_apply (relu : Bool) (X : FVec Ideal ⟨2, ![n, a]⟩ φ₀) (AGG : FVec Ideal ⟨2, ![n, a]⟩ φ₁) (Wa : FVec Ideal ⟨2, ![a, b]⟩ φ₂)
    (ba : FVec Ideal ⟨2, ![1, b]⟩ φ₃) (Wb : FVec Ideal ⟨2, ![b, c]⟩ φ₄) (bb : FVec Ideal ⟨2, ![1, c]⟩ φ₅) (r : Fin n) (q : Fin c) :
    conv relu X AGG Wa ba Wb bb (ix2 r q)
      = convAt relu (fun j => X (ix2 r j)) (fun j => AGG (ix2 r j)) (fun j k => Wa (ix2 j k))
          (fun k => ba (ix2 (0 : Fin 1) k)) (fun k => Wb (ix2 k q)) (bb (ix2 (0 : Fin 1) q)) := rfl

/-- The hidden layer at (r, k): a product into a zero accumulator, the bias row broadcast over the rows, the clamp. -/
theorem hidden_apply (wf1 : DotDims.WF (⟨2, ![n, a]⟩ : Shape) ⟨2, ![a, b]⟩ ⟨2, ![n, b]⟩ [1] [0] [0] [1] [] [])
    (hb1 : (⟨2, ![1, b]⟩ : Shape).Broadcasts ⟨2, ![n, b]⟩)
    (S : FVec Ideal ⟨2, ![n, a]⟩ φ₀) (Wa : FVec Ideal ⟨2, ![a, b]⟩ φ₂) (ba : FVec Ideal ⟨2, ![1, b]⟩ .f32) (r : Fin n) (k : Fin b) :
    maximumf (addf (FloatOps.matmul (LibPlainDot.dims wf1) none S Wa (constant (F := Ideal) ⟨2, ![n, b]⟩ .f32 0x00000000#32))
        (broadcastTo ⟨2, ![n, b]⟩ ba hb1)) (broadcast ⟨2, ![n, b]⟩ (Scalar.ofBits (F := Ideal) .f32 0x00000000#32)) (ix2 r k)
      = max ((∑ j : Fin a, S (ix2 r j) * Wa (ix2 j k)) + ba (ix2 (0 : Fin 1) k)) zero := by
  show max (FloatOps.matmul (LibPlainDot.dims wf1) none S Wa (constant (F := Ideal) ⟨2, ![n, b]⟩ .f32 0x00000000#32) (ix2 r k)
      + broadcastTo ⟨2, ![n, b]⟩ ba hb1 (ix2 r k)) zero = _
  rw [LibPlainDot.matmul_zero_apply wf1 none S Wa r k, broadcastTo_1b_ab_apply ba hb1 r k]

/-- THE BODY'S ARITHMETIC without the closing clamp is the convolution: add the neighbour sum, product into zero, bias
    row, clamp, product into zero, bias row (a change of float format is the identity here). -/
theorem body_eq_conv (wf1 : DotDims.WF (⟨2, ![n, a]⟩ : Shape) ⟨2, ![a, b]⟩ ⟨2, ![n, b]⟩ [1] [0] [0] [1] [] [])
    (wf2 : DotDims.WF (⟨2, ![n, b]⟩ : Shape) ⟨2, ![b, c]⟩ ⟨2, ![n, c]⟩ [1] [0] [0] [1] [] [])
    (hb1 : (⟨2, ![1, b]⟩ : Shape).Broadcasts ⟨2, ![n, b]⟩) (hb2 : (⟨2, ![1, c]⟩ : Shape).Broadcasts ⟨2, ![n, c]⟩)
    (hlt : FTy.bits .bf16 < FTy.bits .f32)
    (x0 x1 : FVec Ideal ⟨2, ![n, a]⟩ .f32) (x2 : FVec Ideal ⟨2, ![a, b]⟩ .bf16) (x3 : FVec Ideal ⟨2, ![1, b]⟩ .f32)
    (x4 : FVec Ideal ⟨2, ![b, c]⟩ .bf16) (x5 : FVec Ideal ⟨2, ![1, c]⟩ .f32) :
    addf (FloatOps.matmul (LibPlainDot.dims wf2) none
          (truncf .bf16 (maximumf (addf (FloatOps.matmul (LibPlainDot.dims wf1) none (truncf .bf16 (addf x0 x1) hlt) x2
              (constant (F := Ideal) ⟨2, ![n, b]⟩ .f32 0x00000000#32)) (broadcastTo ⟨2, ![n, b]⟩ x3 hb1))
            (broadcast ⟨2, ![n, b]⟩ (Scalar.ofBits (F := Ideal) .f32 0x00000000#32))) hlt)
          x4 (constant (F := Ideal) ⟨2, ![n, c]⟩ .f32 0x00000000#32)) (broadcastTo ⟨2, ![n, c]⟩ x5 hb2)
      = conv false x0 x1 x2 x3 x4 x5 := by
  funext i
  obtain ⟨r, q, rfl⟩ : ∃ (r : Fin n) (q : Fin c), i = ix2 r q := ⟨i 0, i 1, eq_ix2 i⟩
  rw [conv_apply]
  show FloatOps.matmul (LibPlainDot.dims wf2) none _ x4 (constant (F := Ideal) ⟨2, ![n, c]⟩ .f32 0x00000000#32) (ix2 r q)
      + broadcastTo ⟨2, ![n, c]⟩ x5 hb2 (ix2 r q) = _
  rw [LibPlainDot.matmul_zero_apply wf2 none _ x4 r q, broadcastTo_1b_ab_apply x5 hb2 r q]
  unfold convAt
  show _ = (∑ k : Fin b, max ((∑ j : Fin a, (x0 (ix2 r j) + x1 (ix2 r j)) * x2 (ix2 j k)) + x3 (ix2 (0 : Fin 1) k)) zero * x4 (ix2 k q))
      + x5 (ix2 (0 : Fin 1) q)
  refine congrArg (· + x5 (ix2 (0 : Fin 1) q)) (Finset.sum_congr rfl fun k _ => ?_)
  refine congrArg (· * x4 (ix2 k q)) ?_
  exact hidden_apply wf1 hb1 (truncf .bf16 (addf x0 x1) hlt) x2 x3 r k

/-- … and with the closing clamp it is the convolution followed by max(·, 0). -/
theorem body_relu_eq_conv (wf1 : DotDims.WF (⟨2, ![n, a]⟩ : Shape) ⟨2, ![a, b]⟩ ⟨2, ![n, b]⟩ [1] [0] [0] [1] [] [])
    (wf2 : DotDims.WF (⟨2, ![n, b]⟩ : Shape) ⟨2, ![b, c]⟩ ⟨2, ![n, c]⟩ [1] [0] [0] [1] [] [])
    (hb1 : (⟨2, ![1, b]⟩ : Shape).Broadcasts ⟨2, ![n, b]⟩) (hb2 : (⟨2, ![1, c]⟩ : Shape).Broadcasts ⟨2, ![n, c]⟩)
    (hlt : FTy.bits .bf16 < FTy.bits .f32)
    (x0 x1 : FVec Ideal ⟨2, ![n, a]⟩ .f32) (x2 : FVec Ideal ⟨2, ![a, b]⟩ .bf16) (x3 : FVec Ideal ⟨2, ![1, b]⟩ .f32)
    (x4 : FVec Ideal ⟨2, ![b, c]⟩ .bf16) (x5 : FVec Ideal ⟨2, ![1, c]⟩ .f32) :
    maximumf (addf (FloatOps.matmul (LibPlainDot.dims wf2) none
          (truncf .bf16 (maximumf (addf (FloatOps.matmul (LibPlainDot.dims wf1) none (truncf .bf16 (addf x0 x1) hlt) x2
              (constant (F := Ideal) ⟨2, ![n, b]⟩ .f32 0x00000000#32)) (broadcastTo ⟨2, ![n, b]⟩ x3 hb1))
            (broadcast ⟨2, ![n, b]⟩ (Scalar.ofBits (F := Ideal) .f32 0x00000000#32))) hlt)
          x4 (constant (F := Ideal) ⟨2, ![n, c]⟩ .f32 0x00000000#32)) (broadcastTo ⟨2, ![n, c]⟩ x5 hb2))
        (broadcast ⟨2, ![n, c]⟩ (Scalar.ofBits (F := Ideal) .f32 0x00000000#32))
      = conv true x0 x1 x2 x3 x4 x5 := by
  rw [body_eq_conv wf1 wf2 hb1 hb2 hlt x0 x1 x2 x3 x4 x5]
  rfl

end Cert.GinConv

end
-- ==== Proof.KernelBody.lean ====
/-
  What one grid point of each fused convolution kernel stores, as a function of the blocks it loads.

  The first kernel's point loads a block of 2000 rows of the node features and of the neighbour sums, the whole of the
  two weight matrices and the two bias rows, and stores max(conv, 0) of them; the second kernel's point stores conv of
  its blocks, with no closing clamp. Both are the convolution of Spec.lean at block height 2000: a reshape to the same
  shape is the identity, and the rest is the arithmetic read there.
-/
import proofs.«171460_j74483322847411_1_alg».proof.Proof.Gen.KernelIdeal.Skeleton
import proofs.«171460_j74483322847411_1_alg».proof.Proof.Spec

noncomputable section

namespace Cert.KernelIdeal.Body

open Idealize.ShloMosaic Idealize.ShloMosaic.ValueIdx Cert.KernelIdeal Cert.KernelIdeal.Gen

/-- The first kernel's stored block: the convolution of its loaded blocks, clamped at zero. -/
theorem pay0_eq (x0 x1 : FVec Ideal S2000x128 .f32) (x2 : FVec Ideal S128x256 .bf16) (x3 : FVec Ideal S1x256 .f32)
    (x4 : FVec Ideal S256x256 .bf16) (x5 : FVec Ideal S1x256 .f32) :
    k0_pay1 (F := Ideal) x0 x1 x2 x3 x4 x5 = GinConv.conv true x0 x1 x2 x3 x4 x5 := by
  unfold k0_pay1
  simp only [shapeCast_self]
  exact GinConv.body_relu_eq_conv dot_S2000x128_S128x256_S2000x256_1_0_0_1_n_n_wf dot_S2000x256_S256x256_S2000x256_1_0_0_1_n_n_wf
    broadcasts_S1x256_S2000x256 broadcasts_S1x256_S2000x256 bitsLt_bf16_f32 x0 x1 x2 x3 x4 x5

/-- The second kernel's stored block: the convolution of its loaded blocks. -/
theorem pay1_eq (x0 x1 : FVec Ideal S2000x256 .f32) (x2 : FVec Ideal S256x256 .bf16) (x3 : FVec Ideal S1x256 .f32)
    (x4 : FVec Ideal S256x128 .bf16) (x5 : FVec Ideal S1x128 .f32) :
    k1_pay1 (F := Ideal) x0 x1 x2 x3 x4 x5 = GinConv.conv false x0 x1 x2 x3 x4 x5 := by
  unfold k1_pay1
  simp only [shapeCast_self]
  exact GinConv.body_eq_conv dot_S2000x256_S256x256_S2000x256_1_0_0_1_n_n_wf dot_S2000x256_S256x128_S2000x128_1_0_0_1_n_n_wf
    broadcasts_S1x256_S2000x256 broadcasts_S1x128_S2000x128 bitsLt_bf16_f32 x0 x1 x2 x3 x4 x5

end Cert.KernelIdeal.Body

end
-- ==== Proof.Layers.lean ====
/-
  The two layers of this network at its literal extents: 50000 nodes, features 128 → 256 → 256 in the first
  convolution (followed by the clamp at zero), 256 → 256 → 128 in the second (no clamp). Each is the convolution of
  Spec.lean; the names only fix the extents and the element types, so that both programs' values are stated with
  one term.
-/
import proofs.«171460_j74483322847411_1_alg».proof.Proof.Spec

noncomputable section

namespace Cert.GinConv

open Idealize.ShloMosaic

/-- The first convolution with the clamp that follows it: [50000, 128] → [50000, 256]. -/
def layer1 (X AGG : FVec Ideal ⟨2, ![50000, 128]⟩ .f32) (Wa : FVec Ideal ⟨2, ![128, 256]⟩ .f32) (ba : FVec Ideal ⟨2, ![1, 256]⟩ .f32)
    (Wb : FVec Ideal ⟨2, ![256, 256]⟩ .f32) (bb : FVec Ideal ⟨2, ![1, 256]⟩ .f32) : FVec Ideal ⟨2, ![50000, 256]⟩ .f32 :=
  conv true X AGG Wa ba Wb bb

/-- The second convolution: [50000, 256] → [50000, 128]. -/
def layer2 (X AGG : FVec Ideal ⟨2, ![50000, 256]⟩ .f32) (Wa : FVec Ideal ⟨2, ![256, 256]⟩ .f32) (ba : FVec Ideal ⟨2, ![1, 256]⟩ .f32)
    (Wb : FVec Ideal ⟨2, ![256, 128]⟩ .f32) (bb : FVec Ideal ⟨2, ![1, 128]⟩ .f32) : FVec Ideal ⟨2, ![50000, 128]⟩ .f32 :=
  conv false X AGG Wa ba Wb bb

end Cert.GinConv

end
-- ==== Proof.KernelBlocks0.lean ====
/-
  The first kernel's output array after its 25 grid points.

  Point t fetches rows 2000·t … 2000·t + 1999 of the node features and of the neighbour sums, and the whole of the two
  weight matrices and bias rows; it writes back rows 2000·t … 2000·t + 1999 of the output. Since entry (r, q) of a
  convolution depends on row r of the features and sums only, what point t writes back is block t of ONE array — the
  layer of the arrays as the region finds them — and the 25 blocks tile the 50000 rows, so that array is what the
  output holds after the last point.
-/
import proofs.«171460_j74483322847411_1_alg».proof.Proof.Gen.KernelIdeal.Frame
import proofs.«171460_j74483322847411_1_alg».proof.Proof.KernelBody
import proofs.«171460_j74483322847411_1_alg».proof.Proof.Layers

set_option maxRecDepth 16384

noncomputable section

namespace Cert.KernelIdeal.Blocks0

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the weights and biases at (0, 0). -/
theorem idx : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row p of block t. -/
def rowOf (t : Fin cfg0.N) (p : Fin 2000) : Fin 50000 :=
  ⟨t.val * 2000 + p.val, by have hN : cfg0.N = 25 := N_0; have := t.isLt; have := p.isLt; omega⟩

/-- Where entry (p, q) of point t's output block sits in the output array. -/
theorem emb_out (t : Fin cfg0.N) (p : Fin 2000) (q : Fin 256) :
    ((cfg0.win 6).blk t).view.emb (ix2 p q) = ix2 (rowOf t p) q := by
  obtain ⟨-, -, -, -, -, -, -, -, -, -, -, -, e0, e1⟩ := idx t
  funext a; apply Fin.ext
  match a with
  | ⟨0, _⟩ => show win0_6.index t (0 : Fin 2) * 2000 + 1 * p.val = t.val * 2000 + p.val; rw [e0]; omega
  | ⟨1, _⟩ => show win0_6.index t (1 : Fin 2) * 256 + 1 * q.val = q.val; rw [e1]; omega

/-- The block of node features at point t: rows 2000·t … of the array. -/
theorem blk_x (c : Dev nD) (t : Fin cfg0.N) (p : Fin 2000) (j : Fin 128) :
    iblk0 V c 0 t (ix2 p j) = V c main_arg0 (ix2 (rowOf t p) j) := by
  obtain ⟨e0, e1, -⟩ := idx t
  show V c main_arg0 (((cfg0.win 0).blk t).view.emb (ix2 p j)) = _
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 128 + 1 * j.val = j.val; rw [e1]; omega

/-- The block of neighbour sums at point t: the same rows. -/
theorem blk_agg (c : Dev nD) (t : Fin cfg0.N) (p : Fin 2000) (j : Fin 128) :
    iblk0 V c 1 t (ix2 p j) = V c main_v13 (ix2 (rowOf t p) j) := by
  obtain ⟨-, -, e0, e1, -⟩ := idx t
  show V c main_v13 (((cfg0.win 1).blk t).view.emb (ix2 p j)) = _
  refine congrArg (V c main_v13) (funext fun a => Fin.ext ?_)
  match a with
  | ⟨0, _⟩ => show win0_1.index t (0 : Fin 2) * 2000 + 1 * p.val = t.val * 2000 + p.val; rw [e0]; omega
  | ⟨1, _⟩ => show win0_1.index t (1 : Fin 2) * 128 + 1 * j.val = j.val; rw [e1]; omega

/-- The first weight matrix is fetched whole at every point. -/
theorem blk_wa (c : Dev nD) (t : Fin cfg0.N) (j : Fin 128) (k : Fin 256) :
    iblk0 V c 2 t (ix2 j k) = V c main_v14 (ix2 j k) := by
  obtain ⟨-, -, -, -, e0, e1, -⟩ := idx t
  show V c main_v14 (((cfg0.win 2).blk t).view.emb (ix2 j k)) = _
  refine congrArg (V c main_v14) (funext fun a => Fin.ext ?_)
  match a with
  | ⟨0, _⟩ => show win0_2.index t (0 : Fin 2) * 128 + 1 * j.val = j.val; rw [e0]; omega
  | ⟨1, _⟩ => show win0_2.index t (1 : Fin 2) * 256 + 1 * k.val = k.val; rw [e1]; omega

/-- The first bias row, whole. -/
theorem blk_ba (c : Dev nD) (t : Fin cfg0.N) (u : Fin 1) (k : Fin 256) :
    iblk0 V c 3 t (ix2 u k) = V c main_v16 (ix2 u k) := by
  obtain ⟨-, -, -, -, -, -, e0, e1, -⟩ := idx t
  show V c main_v16 (((cfg0.win 3).blk t).view.emb (ix2 u k)) = _
  refine congrArg (V c main_v16) (funext fun a => Fin.ext ?_)
  match a with
  | ⟨0, _⟩ => show win0_3.index t (0 : Fin 2) * 1 + 1 * u.val = u.val; rw [e0]; omega
  | ⟨1, _⟩ => show win0_3.index t (1 : Fin 2) * 256 + 1 * k.val = k.val; rw [e1]; omega

/-- The second weight matrix, whole. -/
theorem blk_wb (c : Dev nD) (t : Fin cfg0.N) (k : Fin 256) (q : Fin 256) :
    iblk0 V c 4 t (ix2 k q) = V c main_v15 (ix2 k q) := by
  obtain ⟨-, -, -, -, -, -, -, -, e0, e1, -⟩ := idx t
  show V c main_v15 (((cfg0.win 4).blk t).view.emb (ix2 k q)) = _
  refine congrArg (V c main_v15) (funext fun a => Fin.ext ?_)
  match a with
  | ⟨0, _⟩ => show win0_4.index t (0 : Fin 2) * 256 + 1 * k.val = k.val; rw [e0]; omega
  | ⟨1, _⟩ => show win0_4.index t (1 : Fin 2) * 256 + 1 * q.val = q.val; rw [e1]; omega

/-- The second bias row, whole. -/
theorem blk_bb (c : Dev nD) (t : Fin cfg0.N) (u : Fin 1) (q : Fin 256) :
    iblk0 V c 5 t (ix2 u q) = V c main_v17 (ix2 u q) := by
  obtain ⟨-, -, -, -, -, -, -, -, -, -, e0, e1, -⟩ := idx t
  show V c main_v17 (((cfg0.win 5).blk t).view.emb (ix2 u q)) = _
  refine congrArg (V c main_v17) (funext fun a => Fin.ext ?_)
  match a with
  | ⟨0, _⟩ => show win0_5.index t (0 : Fin 2) * 1 + 1 * u.val = u.val; rw [e0]; omega
  | ⟨1, _⟩ => show win0_5.index t (1 : Fin 2) * 256 + 1 * q.val = q.val; rw [e1]; omega

/-- The layer of the arrays as the region finds them. -/
abbrev G (c : Dev nD) : FVec Ideal S50000x256 .f32 :=
  GinConv.layer1 (V c main_arg0) (V c main_v13) (V c main_v14) (V c main_v16) (V c main_v15) (V c main_v17)

/-- WHAT POINT t WRITES BACK is block t of the layer of the region's arrays. -/
theorem flushed_eq (c : Dev nD) (t : Fin cfg0.N) :
    (dat0 V c).flushed 6 t = ((cfg0.win 6).blk t).view.read (Elt Ideal) (G V c) := by
  show (cfg0.win 6).cut (grid0.coords t) ((dat0 V c).after 6 t) = _
  rw [after0_6]
  unfold out0_6
  rw [View.canon_unit_zero hz]
  simp only [View.ld_unit_zero (S := S2000x128) hz, View.ld_unit_zero (S := S128x256) hz, View.ld_unit_zero (S := S1x256) hz, View.ld_unit_zero (S := S256x256) hz]
  rw [Body.pay0_eq]
  funext y
  obtain ⟨p, q, rfl⟩ : ∃ (p : Fin 2000) (q : Fin 256), y = ix2 p q := ⟨y 0, y 1, eq_ix2 y⟩
  show GinConv.conv true (iblk0 V c 0 t) (iblk0 V c 1 t) (iblk0 V c 2 t) (iblk0 V c 3 t) (iblk0 V c 4 t) (iblk0 V c 5 t) (ix2 p q)
    = G V c (((cfg0.win 6).blk t).view.emb (ix2 p q))
  rw [emb_out t p q]
  unfold G GinConv.layer1
  rw [GinConv.conv_apply, GinConv.conv_apply]
  simp only [blk_x V c t, blk_agg V c t, blk_wa V c t, blk_ba V c t, blk_wb V c t, blk_bb V c t]

/-- An index of the output array is in point t's block iff each coordinate is in the block's range. -/
theorem mem_blk (t : Fin cfg0.N) (i : S50000x256.Idx) :
    i ∈ ((cfg0.win 6).blk t).view.set ↔ ∀ a : Fin 2, win0_6.index t a * S2000x256.size a ≤ (i a).val ∧ (i a).val < win0_6.index t a * S2000x256.size a + S2000x256.size a := by
  show i ∈ ((View.whole main_v18).slice (win0_6.rect t)).set ↔ _
  rw [View.set_slice_whole, Rect.mem_set_unit]
  exact Iff.rfl

/-- The 25 blocks of 2000 rows tile the 50000 rows: row r is in block r / 2000. -/
theorem cover (i : S50000x256.Idx) : ∃ t : Fin cfg0.N, (cfg0.win 6).flush t = true ∧ i ∈ ((cfg0.win 6).blk t).view.set := by
  have hi0 : (i 0).val < 50000 := (i 0).isLt
  have hi1 : (i 1).val < 256 := (i 1).isLt
  have hN : cfg0.N = 25 := N_0
  have ht : (i 0).val / 2000 < cfg0.N := by omega
  obtain ⟨-, -, -, -, -, -, -, -, -, -, -, -, e0, e1⟩ := idx ⟨(i 0).val / 2000, ht⟩
  refine ⟨⟨(i 0).val / 2000, ht⟩, flush0_6 _, ?_⟩
  rw [mem_blk]
  intro a
  match a with
  | ⟨0, _⟩ =>
    show win0_6.index ⟨(i 0).val / 2000, ht⟩ (0 : Fin 2) * 2000 ≤ (i 0).val ∧ (i 0).val < win0_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_6.index ⟨(i 0).val / 2000, ht⟩ (1 : Fin 2) * 256 ≤ (i 1).val ∧ (i 1).val < win0_6.index ⟨(i 0).val / 2000, ht⟩ (1 : Fin 2) * 256 + 256
    rw [e1]; omega

/-- THE OUTPUT ARRAY after the last point: the layer of the arrays as the region finds them. -/
theorem final (c : Dev nD) : (dat0 V c).arrAt 6 cfg0.N = G V c :=
  (dat0 V c).arrAt_eq_of_cover 6 (G V c) (fun t _ => flushed_eq V c t) cover

end Cert.KernelIdeal.Blocks0

end
-- ==== Proof.KernelBlocks1.lean ====
/-
  The second kernel's output array after its 25 grid points.

  Point t fetches rows 2000·t … 2000·t + 1999 of the node features and of the neighbour sums, and the whole of the two
  weight matrices and bias rows; it writes back rows 2000·t … 2000·t + 1999 of the output. Since entry (r, q) of a
  convolution depends on row r of the features and sums only, what point t writes back is block t of ONE array — the
  layer of the arrays as the region finds them — and the 25 blocks tile the 50000 rows, so that array is what the
  output holds after the last point.
-/
import proofs.«171460_j74483322847411_1_alg».proof.Proof.Gen.KernelIdeal.Frame
import proofs.«171460_j74483322847411_1_alg».proof.Proof.KernelBody
import proofs.«171460_j74483322847411_1_alg».proof.Proof.Layers

set_option maxRecDepth 16384

noncomputable section

namespace Cert.KernelIdeal.Blocks1

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows sit at block (t, 0), the weights and biases at (0, 0). -/
theorem idx : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row p of block t. -/
def rowOf (t : Fin cfg1.N) (p : Fin 2000) : Fin 50000 :=
  ⟨t.val * 2000 + p.val, by have hN : cfg1.N = 25 := N_1; have := t.isLt; have := p.isLt; omega⟩

/-- Where entry (p, q) of point t's output block sits in the output array. -/
theorem emb_out (t : Fin cfg1.N) (p : Fin 2000) (q : Fin 128) :
    ((cfg1.win 6).blk t).view.emb (ix2 p q) = ix2 (rowOf t p) q := by
  obtain ⟨-, -, -, -, -, -, -, -, -, -, -, -, e0, e1⟩ := idx t
  funext a; apply Fin.ext
  match a with
  | ⟨0, _⟩ => show win1_6.index t (0 : Fin 2) * 2000 + 1 * p.val = t.val * 2000 + p.val; rw [e0]; omega
  | ⟨1, _⟩ => show win1_6.index t (1 : Fin 2) * 128 + 1 * q.val = q.val; rw [e1]; omega

/-- The block of node features at point t: rows 2000·t … of the array. -/
theorem blk_x (c : Dev nD) (t : Fin cfg1.N) (p : Fin 2000) (j : Fin 256) :
    iblk1 V c 0 t (ix2 p j) = V c main_v18 (ix2 (rowOf t p) j) := by
  obtain ⟨e0, e1, -⟩ := idx t
  show V c main_v18 (((cfg1.win 0).blk t).view.emb (ix2 p j)) = _
  refine congrArg (V c main_v18) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * j.val = j.val; rw [e1]; omega

/-- The block of neighbour sums at point t: the same rows. -/
theorem blk_agg (c : Dev nD) (t : Fin cfg1.N) (p : Fin 2000) (j : Fin 256) :
    iblk1 V c 1 t (ix2 p j) = V c main_v28 (ix2 (rowOf t p) j) := by
  obtain ⟨-, -, e0, e1, -⟩ := idx t
  show V c main_v28 (((cfg1.win 1).blk t).view.emb (ix2 p j)) = _
  refine congrArg (V c main_v28) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 256 + 1 * j.val = j.val; rw [e1]; omega

/-- The first weight matrix is fetched whole at every point. -/
theorem blk_wa (c : Dev nD) (t : Fin cfg1.N) (j : Fin 256) (k : Fin 256) :
    iblk1 V c 2 t (ix2 j k) = V c main_v29 (ix2 j k) := by
  obtain ⟨-, -, -, -, e0, e1, -⟩ := idx t
  show V c main_v29 (((cfg1.win 2).blk t).view.emb (ix2 j k)) = _
  refine congrArg (V c main_v29) (funext fun a => Fin.ext ?_)
  match a with
  | ⟨0, _⟩ => show win1_2.index t (0 : Fin 2) * 256 + 1 * j.val = j.val; rw [e0]; omega
  | ⟨1, _⟩ => show win1_2.index t (1 : Fin 2) * 256 + 1 * k.val = k.val; rw [e1]; omega

/-- The first bias row, whole. -/
theorem blk_ba (c : Dev nD) (t : Fin cfg1.N) (u : Fin 1) (k : Fin 256) :
    iblk1 V c 3 t (ix2 u k) = V c main_v31 (ix2 u k) := by
  obtain ⟨-, -, -, -, -, -, e0, e1, -⟩ := idx t
  show V c main_v31 (((cfg1.win 3).blk t).view.emb (ix2 u k)) = _
  refine congrArg (V c main_v31) (funext fun a => Fin.ext ?_)
  match a with
  | ⟨0, _⟩ => show win1_3.index t (0 : Fin 2) * 1 + 1 * u.val = u.val; rw [e0]; omega
  | ⟨1, _⟩ => show win1_3.index t (1 : Fin 2) * 256 + 1 * k.val = k.val; rw [e1]; omega

/-- The second weight matrix, whole. -/
theorem blk_wb (c : Dev nD) (t : Fin cfg1.N) (k : Fin 256) (q : Fin 128) :
    iblk1 V c 4 t (ix2 k q) = V c main_v30 (ix2 k q) := by
  obtain ⟨-, -, -, -, -, -, -, -, e0, e1, -⟩ := idx t
  show V c main_v30 (((cfg1.win 4).blk t).view.emb (ix2 k q)) = _
  refine congrArg (V c main_v30) (funext fun a => Fin.ext ?_)
  match a with
  | ⟨0, _⟩ => show win1_4.index t (0 : Fin 2) * 256 + 1 * k.val = k.val; rw [e0]; omega
  | ⟨1, _⟩ => show win1_4.index t (1 : Fin 2) * 128 + 1 * q.val = q.val; rw [e1]; omega

/-- The second bias row, whole. -/
theorem blk_bb (c : Dev nD) (t : Fin cfg1.N) (u : Fin 1) (q : Fin 128) :
    iblk1 V c 5 t (ix2 u q) = V c main_v32 (ix2 u q) := by
  obtain ⟨-, -, -, -, -, -, -, -, -, -, e0, e1, -⟩ := idx t
  show V c main_v32 (((cfg1.win 5).blk t).view.emb (ix2 u q)) = _
  refine congrArg (V c main_v32) (funext fun a => Fin.ext ?_)
  match a with
  | ⟨0, _⟩ => show win1_5.index t (0 : Fin 2) * 1 + 1 * u.val = u.val; rw [e0]; omega
  | ⟨1, _⟩ => show win1_5.index t (1 : Fin 2) * 128 + 1 * q.val = q.val; rw [e1]; omega

/-- The layer of the arrays as the region finds them. -/
abbrev G (c : Dev nD) : FVec Ideal S50000x128 .f32 :=
  GinConv.layer2 (V c main_v18) (V c main_v28) (V c main_v29) (V c main_v31) (V c main_v30) (V c main_v32)

/-- WHAT POINT t WRITES BACK is block t of the layer of the region's arrays. -/
theorem flushed_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S2000x256) hz, View.ld_unit_zero (S := S256x256) hz, View.ld_unit_zero (S := S1x256) hz, View.ld_unit_zero (S := S256x128) hz, View.ld_unit_zero (S := S1x128) hz]
  rw [Body.pay1_eq]
  funext y
  obtain ⟨p, q, rfl⟩ : ∃ (p : Fin 2000) (q : Fin 128), y = ix2 p q := ⟨y 0, y 1, eq_ix2 y⟩
  show GinConv.conv false (iblk1 V c 0 t) (iblk1 V c 1 t) (iblk1 V c 2 t) (iblk1 V c 3 t) (iblk1 V c 4 t) (iblk1 V c 5 t) (ix2 p q)
    = G V c (((cfg1.win 6).blk t).view.emb (ix2 p q))
  rw [emb_out t p q]
  unfold G GinConv.layer2
  rw [GinConv.conv_apply, GinConv.conv_apply]
  simp only [blk_x V c t, blk_agg V c t, blk_wa V c t, blk_ba V c t, blk_wb V c t, blk_bb V c t]

/-- An index of the output array is in point t's block iff each coordinate is in the block's range. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole main_v33).slice (win1_6.rect t)).set ↔ _
  rw [View.set_slice_whole, Rect.mem_set_unit]
  exact Iff.rfl

/-- The 25 blocks of 2000 rows tile the 50000 rows: row r is in block r / 2000. -/
theorem cover (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 25 := N_1
  have ht : (i 0).val / 2000 < cfg1.N := by omega
  obtain ⟨-, -, -, -, -, -, -, -, -, -, -, -, e0, e1⟩ := idx ⟨(i 0).val / 2000, ht⟩
  refine ⟨⟨(i 0).val / 2000, ht⟩, flush1_6 _, ?_⟩
  rw [mem_blk]
  intro a
  match a with
  | ⟨0, _⟩ =>
    show win1_6.index ⟨(i 0).val / 2000, ht⟩ (0 : Fin 2) * 2000 ≤ (i 0).val ∧ (i 0).val < win1_6.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_6.index ⟨(i 0).val / 2000, ht⟩ (1 : Fin 2) * 128 ≤ (i 1).val ∧ (i 1).val < win1_6.index ⟨(i 0).val / 2000, ht⟩ (1 : Fin 2) * 128 + 128
    rw [e1]; omega

/-- THE OUTPUT ARRAY after the last point: the layer of the arrays as the region finds them. -/
theorem final (c : Dev nD) : (dat1 V c).arrAt 6 cfg1.N = G V c :=
  (dat1 V c).arrAt_eq_of_cover 6 (G V c) (fun t _ => flushed_eq V c t) cover

end Cert.KernelIdeal.Blocks1

end
-- ==== Proof.KernelRun.lean ====
/-
  The kernel program's run with its result named.

  @main is four segments: a stretch of host operations, the first fused convolution over its 25 grid points, a second
  stretch of host operations, the second fused convolution. The contents of every buffer at each boundary are a fold
  from the launch memory (`Gen.W0` … `Gen.W4`), and every weakly fair execution terminates in a state whose unscoped
  buffers hold the last boundary's contents `Gen.W4`. Read at the arguments that gives the frame; read ALSO at the
  result buffer it names what the program returns: `Gen.W4` at the second kernel's output, which the later modules
  open. Stated for any float instance, like the frame.
-/
import proofs.«171460_j74483322847411_1_alg».proof.Proof.Gen.KernelIdeal.Frame

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the argument arrays as launched. -/
theorem run_named : θ_run defs (onTc (τ := τ) (main (F := F))) ⟨m, fun _ => 0, ρ⟩ (fun r => ∀ c : Dev nD,
      r.2.mem ((c.tc : Thread nD τ).loc main_v33) = W4 m ρ c (Proc.devRef .tc main_v33)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v33 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)

end Cert.KernelIdeal.Run

end
-- ==== Proof.KernelValue.lean ====
/-
  What the kernel program returns, as one function of its arguments.

  The host side computes, for a feature array X and the edge list, the neighbour sums agg(X): gather the rows of X at
  the edges' source ids (a negative id counting from the end) and scatter-add them at the destination ids into zeros.
  The first region's operands are X, agg(X), the first layer's weights (a change of float format, the identity here)
  and its biases reshaped to rows; its output H is the first layer of them (KernelBlocks0). The second stretch of host
  operations recomputes the sums from H, and the second region's output — what @main returns — is the second layer of
  H, agg(H), the second layer's weights and bias rows (KernelBlocks1). Every operand is read off the boundary contents
  by running the stretch's operations symbolically; nothing here opens a gather or a scatter.
-/
import proofs.«171460_j74483322847411_1_alg».proof.Proof.KernelBlocks0
import proofs.«171460_j74483322847411_1_alg».proof.Proof.KernelBlocks1
import proofs.«171460_j74483322847411_1_alg».proof.Proof.KernelRun
import Idealize.ShloMosaic.Lib.StableHlo.Run

set_option maxRecDepth 16384

noncomputable section

namespace Cert.KernelIdeal.Closed

open Idealize.ShloMosaic Idealize.ShloMosaic.TcCoe Idealize.SL.Sem Idealize.ShloMosaic.StableHlo Cert.KernelIdeal Cert.KernelIdeal.Gen

/-- A weight matrix stored in the shorter float format: over the extended reals the same array. -/
def asBf16 {s : Shape} (W : FVec Ideal s .f32) : FVec Ideal s .bf16 := truncf .bf16 W bitsLt_bf16_f32

/-- The edge list's type: [2, 640000] 32-bit ids. -/
abbrev Edges := (⟨S2x640000, .i32⟩ : BufTy).Contents (Elt Ideal)

/-- Row 0 of the edge list: the source ids. -/
def srcRaw (ei : Edges) : (⟨S640000, .i32⟩ : BufTy).Contents (Elt Ideal) :=
  shapeCast S640000 (extractStridedSlice S1x640000 ![0, 0] ei slices_S2x640000_S1x640000_0_0) shapeCasts_S1x640000_S640000

/-- Row 1 of the edge list: the destination ids. -/
def dstRaw (ei : Edges) : (⟨S640000, .i32⟩ : BufTy).Contents (Elt Ideal) :=
  shapeCast S640000 (extractStridedSlice S1x640000 ![1, 0] ei slices_S2x640000_S1x640000_1_0) shapeCasts_S1x640000_S640000

/-- The source ids as gather indices: a negative id has the node count added. -/
def srcIdx (ei : Edges) : (⟨S640000x1, .i32⟩ : BufTy).Contents (Elt Ideal) :=
  broadcastInDim S640000x1 ![0] bcast_S640000_S640000x1_0
    (select (cmpi .slt (srcRaw ei) (broadcastInDim S640000 ![] bcast_S_S640000 (constantI S_ 32 0#32)))
      (addi (srcRaw ei) (broadcastInDim S640000 ![] bcast_S_S640000 (constantI S_ 32 50000#32))) (srcRaw ei))

/-- The destination ids as scatter indices. -/
def dstIdx (ei : Edges) : (⟨S640000x1, .i32⟩ : BufTy).Contents (Elt Ideal) :=
  broadcastInDim S640000x1 ![0] bcast_S640000_S640000x1_0 (dstRaw ei)

/-- The neighbour sums of a [50000, 128] feature array. -/
def agg1 (X : FVec Ideal S50000x128 .f32) (ei : Edges) : FVec Ideal S50000x128 .f32 :=
  Host.scatterAdd scatter_S50000x128_S640000x1_S640000x128_1_0_0_1
    (broadcastInDim S50000x128 ![] bcast_S_S50000x128 (constant (F := Ideal) S_ .f32 0x00000000#32)) (dstIdx ei)
    (Host.gather gather_S50000x128_S640000x1_S640000x128_1_0_n_n_0_1_1128 X (srcIdx ei))

/-- The neighbour sums of a [50000, 256] feature array. -/
def agg2 (H : FVec Ideal S50000x256 .f32) (ei : Edges) : FVec Ideal S50000x256 .f32 :=
  Host.scatterAdd scatter_S50000x256_S640000x1_S640000x256_1_0_0_1
    (broadcastInDim S50000x256 ![] bcast_S_S50000x256 (constant (F := Ideal) S_ .f32 0x00000000#32)) (dstIdx ei)
    (Host.gather gather_S50000x256_S640000x1_S640000x256_1_0_n_n_0_1_1256 H (srcIdx ei))

/-- The first region's output as a function of the arguments. -/
def hidden (X : FVec Ideal S50000x128 .f32) (ei : Edges) (W1a : FVec Ideal S128x256 .f32) (b1a : FVec Ideal S256 .f32)
    (W1b : FVec Ideal S256x256 .f32) (b1b : FVec Ideal S256 .f32) : FVec Ideal S50000x256 .f32 :=
  GinConv.layer1 X (agg1 X ei) W1a (shapeCast S1x256 b1a shapeCasts_S256_S1x256) W1b (shapeCast S1x256 b1b shapeCasts_S256_S1x256)

/-- What @main returns as a function of the arguments. -/
def result (X : FVec Ideal S50000x128 .f32) (ei : Edges) (W1a : FVec Ideal S128x256 .f32) (b1a : FVec Ideal S256 .f32)
    (W1b : FVec Ideal S256x256 .f32) (b1b : FVec Ideal S256 .f32) (W2a : FVec Ideal S256x256 .f32) (b2a : FVec Ideal S256 .f32)
    (W2b : FVec Ideal S256x128 .f32) (b2b : FVec Ideal S128 .f32) : FVec Ideal S50000x128 .f32 :=
  GinConv.layer2 (hidden X ei W1a b1a W1b b1b) (agg2 (hidden X ei W1a b1a W1b b1b) ei) W2a
    (shapeCast S1x256 b2a shapeCasts_S256_S1x256) W2b (shapeCast S1x128 b2b shapeCasts_S128_S1x128)

variable (m : (ℓ : Loc nD τ sig) → Buf (Elt Ideal) ℓ) (ρ : Dev nD → PrngReg)

/-! ## The first region's operands, off the first stretch of host operations -/

theorem V1_arg0 (c : Dev nD) : V1 m ρ c main_arg0 = m ((c : Thread nD τ).loc main_arg0) := by
  show StableHlo.after hostOps0 (W0 m ρ c) (Proc.devRef .tc main_arg0) = _
  after_results <;> rfl

theorem V1_v13 (c : Dev nD) :
    V1 m ρ c main_v13 = agg1 (m ((c : Thread nD τ).loc main_arg0)) (m ((c : Thread nD τ).loc main_arg1)) := by
  show StableHlo.after hostOps0 (W0 m ρ c) (Proc.devRef .tc main_v13) = _
  after_results <;> rfl

theorem V1_v14 (c : Dev nD) : V1 m ρ c main_v14 = asBf16 (s := S128x256) (m ((c : Thread nD τ).loc main_arg2)) := by
  show StableHlo.after hostOps0 (W0 m ρ c) (Proc.devRef .tc main_v14) = _
  after_results <;> rfl

theorem V1_v15 (c : Dev nD) : V1 m ρ c main_v15 = asBf16 (s := S256x256) (m ((c : Thread nD τ).loc main_arg4)) := by
  show StableHlo.after hostOps0 (W0 m ρ c) (Proc.devRef .tc main_v15) = _
  after_results <;> rfl

theorem V1_v16 (c : Dev nD) : V1 m ρ c main_v16 = shapeCast S1x256 (m ((c : Thread nD τ).loc main_arg3)) shapeCasts_S256_S1x256 := by
  show StableHlo.after hostOps0 (W0 m ρ c) (Proc.devRef .tc main_v16) = _
  after_results <;> rfl

theorem V1_v17 (c : Dev nD) : V1 m ρ c main_v17 = shapeCast S1x256 (m ((c : Thread nD τ).loc main_arg5)) shapeCasts_S256_S1x256 := by
  show StableHlo.after hostOps0 (W0 m ρ c) (Proc.devRef .tc main_v17) = _
  after_results <;> rfl

/-- THE FIRST REGION'S OUTPUT is the first layer of the arguments. -/
theorem region0_value (c : Dev nD) :
    (dat0 (V1 m ρ) c).arrAt 6 cfg0.N
      = hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  rw [Blocks0.final (V1 m ρ) c]
  show GinConv.layer1 (V1 m ρ c main_arg0) (V1 m ρ c main_v13) (V1 m ρ c main_v14) (V1 m ρ c main_v16) (V1 m ρ c main_v15) (V1 m ρ c main_v17) = _
  rw [V1_arg0 m ρ c, V1_v13 m ρ c, V1_v14 m ρ c, V1_v16 m ρ c, V1_v15 m ρ c, V1_v17 m ρ c]
  rfl

/-! ## Buffers the first region does not touch, at its exit -/

theorem W2_v1 (c : Dev nD) : W2 m ρ c (Proc.devRef .tc main_v1) = srcRaw (m ((c : Thread nD τ).loc main_arg1)) :=
  (W2_of_ne m ρ c main_v1 (by decide)).trans (by
    show StableHlo.after hostOps0 (W0 m ρ c) (Proc.devRef .tc main_v1) = _
    after_results <;> rfl)

theorem W2_v3 (c : Dev nD) : W2 m ρ c (Proc.devRef .tc main_v3) = dstRaw (m ((c : Thread nD τ).loc main_arg1)) :=
  (W2_of_ne m ρ c main_v3 (by decide)).trans (by
    show StableHlo.after hostOps0 (W0 m ρ c) (Proc.devRef .tc main_v3) = _
    after_results <;> rfl)

theorem W2_arg6 (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results <;> rfl)

theorem W2_arg7 (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results <;> rfl)

theorem W2_arg8 (c : Dev nD) : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results <;> rfl)

theorem W2_arg9 (c : Dev nD) : W2 m ρ c (Proc.devRef .tc main_arg9) = m ((c : Thread nD τ).loc main_arg9) :=
  (W2_of_ne m ρ c main_arg9 (by decide)).trans (by
    show StableHlo.after hostOps0 (W0 m ρ c) (Proc.devRef .tc main_arg9) = _
    after_results <;> rfl)

/-- The first region's output buffer at its exit holds the first layer of the arguments. -/
theorem W2_v18 (c : Dev nD) :
    W2 m ρ c (Proc.devRef .tc main_v18)
      = hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  (W2_arr m ρ c 6).trans (region0_value m ρ c)

/-! ## The second region's operands, off the second stretch of host operations -/

theorem V3_v18 (c : Dev nD) :
    V3 m ρ c main_v18
      = hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  show StableHlo.after hostOps1 (W2 m ρ c) (Proc.devRef .tc main_v18) = _
  after_results
  exact W2_v18 m ρ c

theorem V3_v28 (c : Dev nD) :
    V3 m ρ c main_v28
      = agg2 (hidden (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)))
        (m ((c : Thread nD τ).loc main_arg1)) := by
  show StableHlo.after hostOps1 (W2 m ρ c) (Proc.devRef .tc main_v28) = _
  after_results
  rw [W2_v1 m ρ c, W2_v3 m ρ c, W2_v18 m ρ c]
  rfl

theorem V3_v29 (c : Dev nD) : V3 m ρ c main_v29 = asBf16 (s := S256x256) (m ((c : Thread nD τ).loc main_arg6)) := by
  show StableHlo.after hostOps1 (W2 m ρ c) (Proc.devRef .tc main_v29) = _
  after_results
  rw [W2_arg6 m ρ c] <;> rfl

theorem V3_v30 (c : Dev nD) : V3 m ρ c main_v30 = asBf16 (s := S256x128) (m ((c : Thread nD τ).loc main_arg8)) := by
  show StableHlo.after hostOps1 (W2 m ρ c) (Proc.devRef .tc main_v30) = _
  after_results
  rw [W2_arg8 m ρ c] <;> rfl

theorem V3_v31 (c : Dev nD) : V3 m ρ c main_v31 = shapeCast S1x256 (m ((c : Thread nD τ).loc main_arg7)) shapeCasts_S256_S1x256 := by
  show StableHlo.after hostOps1 (W2 m ρ c) (Proc.devRef .tc main_v31) = _
  after_results
  rw [W2_arg7 m ρ c]
  rfl

theorem V3_v32 (c : Dev nD) : V3 m ρ c main_v32 = shapeCast S1x128 (m ((c : Thread nD τ).loc main_arg9)) shapeCasts_S128_S1x128 := by
  show StableHlo.after hostOps1 (W2 m ρ c) (Proc.devRef .tc main_v32) = _
  after_results
  rw [W2_arg9 m ρ c]
  rfl

/-- WHAT @main RETURNS: the last boundary's contents at the result buffer are `result` of the arguments. -/
theorem W4_result (c : Dev nD) :
    W4 m ρ c (Proc.devRef .tc main_v33)
      = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) := by
  refine (W4_arr m ρ c 6).trans ?_
  rw [Blocks1.final (V3 m ρ) c]
  show GinConv.layer2 (V3 m ρ c main_v18) (V3 m ρ c main_v28) (V3 m ρ c main_v29) (V3 m ρ c main_v31) (V3 m ρ c main_v30) (V3 m ρ c main_v32) = _
  rw [V3_v18 m ρ c, V3_v28 m ρ c, V3_v29 m ρ c, V3_v31 m ρ c, V3_v30 m ρ c, V3_v32 m ρ c]
  rfl

/-- THE KERNEL PROGRAM'S RUN: it terminates with `result` of the arguments at the result buffer, the arguments unchanged. -/
theorem run : θ_run defs (onTc (τ := τ) (main (F := Ideal))) ⟨m, fun _ => 0, ρ⟩ (fun r => ∀ c : Dev nD,
      r.2.mem ((c.tc : Thread nD τ).loc main_v33)
        = result (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (W4_result m ρ c), (h c).2⟩) (Run.run_named m ρ)

end Cert.KernelIdeal.Closed

end
-- ==== Proof.HostConv.lean ====
/-
  The convolution as a host program spells it.

  jnp writes `max((X + AGG) @ Wa + ba, 0) @ Wb + bb` as: an elementwise sum, a `dot_general` contracting the left
  operand's axis 1 with the right operand's axis 0, the bias row [1, b] sent by `broadcast_in_dim` (dims = [0, 1])
  over the n rows, the zero scalar sent by `broadcast_in_dim` (no dims) to the whole shape for the clamp, and the same
  again for the second layer. Read at an entry this is the convolution of Spec.lean: the product is the textbook sum,
  the broadcast row reads its one row, the broadcast scalar reads the scalar. General in n, a, b, c.
-/
import proofs.«171460_j74483322847411_1_alg».proof.Proof.Spec

noncomputable section

namespace Cert.GinConv

open Idealize.ShloMosaic Idealize.ShloMosaic.ValueIdx

variable {n a b c : Nat} {φ₀ φ₂ : FTy}

/-- A row [1, b] sent by `broadcast_in_dim` (dims = [0, 1]) over n rows reads, at (r, k), the row at k. -/
theorem bcastRows_apply {α : Type} (v : (⟨2, ![1, b]⟩ : Shape).Idx → α)
    (h : (⟨2, ![1, b]⟩ : Shape).BroadcastsInDim ⟨2, ![n, b]⟩ ![0, 1]) (r : Fin n) (k : Fin b) :
    broadcastInDim ⟨2, ![n, b]⟩ ![0, 1] h v (ix2 r k) = v (ix2 (0 : Fin 1) k) := by
  refine broadcastInDim_apply _ h v (ix2 r k) (ix2 (0 : Fin 1) k) fun ax => ?_
  match ax with
  | ⟨0, _⟩ => rfl
  | ⟨1, _⟩ =>
    show k.val = if b = 1 then 0 else k.val
    split
    · have := k.isLt; omega
    · rfl

/-- A scalar sent by `broadcast_in_dim` (no dims) to any shape reads the scalar at every index. -/
theorem bcastScalar_apply {α : Type} {s : Shape} (v : (⟨0, ![]⟩ : Shape).Idx → α)
    (h : (⟨0, ![]⟩ : Shape).BroadcastsInDim s (![] : Fin 0 → Fin s.rank)) (i : s.Idx) :
    broadcastInDim s ![] h v i = v ix0 :=
  broadcastInDim_apply _ h v i ix0 fun ax => ax.elim0

/-- The hidden layer at (r, k) in the host's spelling. -/
theorem host_hidden_apply (wf1 : DotDims.WF (⟨2, ![n, a]⟩ : Shape) ⟨2, ![a, b]⟩ ⟨2, ![n, b]⟩ [1] [0] [0] [1] [] [])
    (hr1 : (⟨2, ![1, b]⟩ : Shape).BroadcastsInDim ⟨2, ![n, b]⟩ ![0, 1])
    (hz1 : (⟨0, ![]⟩ : Shape).BroadcastsInDim ⟨2, ![n, b]⟩ (![] : Fin 0 → Fin 2))
    (S : FVec Ideal ⟨2, ![n, a]⟩ φ₀) (Wa : FVec Ideal ⟨2, ![a, b]⟩ φ₂) (ba : FVec Ideal ⟨2, ![1, b]⟩ .f32) (r : Fin n) (k : Fin b) :
    maximumf (addf (FloatOps.dotGeneral (LibPlainDot.dims wf1) none .single S Wa) (broadcastInDim ⟨2, ![n, b]⟩ ![0, 1] hr1 ba))
        (broadcastInDim ⟨2, ![n, b]⟩ ![] hz1 (constant (F := Ideal) ⟨0, ![]⟩ .f32 0x00000000#32)) (ix2 r k)
      = max ((∑ j : Fin a, S (ix2 r j) * Wa (ix2 j k)) + ba (ix2 (0 : Fin 1) k)) zero := by
  show max (FloatOps.dotGeneral (LibPlainDot.dims wf1) none .single S Wa (ix2 r k) + broadcastInDim ⟨2, ![n, b]⟩ ![0, 1] hr1 ba (ix2 r k))
      (broadcastInDim ⟨2, ![n, b]⟩ ![] hz1 (constant (F := Ideal) ⟨0, ![]⟩ .f32 0x00000000#32) (ix2 r k)) = _
  rw [LibPlainDot.dotGeneral_apply wf1 none .single S Wa r k, bcastRows_apply ba hr1 r k,
    bcastScalar_apply (constant (F := Ideal) ⟨0, ![]⟩ .f32 0x00000000#32) hz1 (ix2 r k)]
  rfl

/-- THE HOST'S SPELLING without a closing clamp is the convolution. -/
theorem host_eq_conv (wf1 : DotDims.WF (⟨2, ![n, a]⟩ : Shape) ⟨2, ![a, b]⟩ ⟨2, ![n, b]⟩ [1] [0] [0] [1] [] [])
    (wf2 : DotDims.WF (⟨2, ![n, b]⟩ : Shape) ⟨2, ![b, c]⟩ ⟨2, ![n, c]⟩ [1] [0] [0] [1] [] [])
    (hr1 : (⟨2, ![1, b]⟩ : Shape).BroadcastsInDim ⟨2, ![n, b]⟩ ![0, 1]) (hr2 : (⟨2, ![1, c]⟩ : Shape).BroadcastsInDim ⟨2, ![n, c]⟩ ![0, 1])
    (hz1 : (⟨0, ![]⟩ : Shape).BroadcastsInDim ⟨2, ![n, b]⟩ (![] : Fin 0 → Fin 2))
    (X AGG : FVec Ideal ⟨2, ![n, a]⟩ .f32) (Wa : FVec Ideal ⟨2, ![a, b]⟩ .f32) (ba : FVec Ideal ⟨2, ![1, b]⟩ .f32)
    (Wb : FVec Ideal ⟨2, ![b, c]⟩ .f32) (bb : FVec Ideal ⟨2, ![1, c]⟩ .f32) :
    addf (FloatOps.dotGeneral (LibPlainDot.dims wf2) none .single
          (maximumf (addf (FloatOps.dotGeneral (LibPlainDot.dims wf1) none .single (addf X AGG) Wa) (broadcastInDim ⟨2, ![n, b]⟩ ![0, 1] hr1 ba))
            (broadcastInDim ⟨2, ![n, b]⟩ ![] hz1 (constant (F := Ideal) ⟨0, ![]⟩ .f32 0x00000000#32)))
          Wb) (broadcastInDim ⟨2, ![n, c]⟩ ![0, 1] hr2 bb)
      = conv false X AGG Wa ba Wb bb := by
  funext i
  obtain ⟨r, q, rfl⟩ : ∃ (r : Fin n) (q : Fin c), i = ix2 r q := ⟨i 0, i 1, eq_ix2 i⟩
  rw [conv_apply]
  show FloatOps.dotGeneral (LibPlainDot.dims wf2) none .single _ Wb (ix2 r q) + broadcastInDim ⟨2, ![n, c]⟩ ![0, 1] hr2 bb (ix2 r q) = _
  rw [LibPlainDot.dotGeneral_apply wf2 none .single _ Wb r q, bcastRows_apply bb hr2 r q]
  unfold convAt
  show _ = (∑ k : Fin b, max ((∑ j : Fin a, (X (ix2 r j) + AGG (ix2 r j)) * Wa (ix2 j k)) + ba (ix2 (0 : Fin 1) k)) zero * Wb (ix2 k q))
      + bb (ix2 (0 : Fin 1) q)
  refine congrArg (· + bb (ix2 (0 : Fin 1) q)) (Finset.sum_congr rfl fun k _ => ?_)
  refine congrArg (· * Wb (ix2 k q)) ?_
  exact host_hidden_apply wf1 hr1 hz1 (addf X AGG) Wa ba r k

/-- … and followed by the clamp against the broadcast zero it is the convolution followed by max(·, 0). -/
theorem host_relu_eq_conv (wf1 : DotDims.WF (⟨2, ![n, a]⟩ : Shape) ⟨2, ![a, b]⟩ ⟨2, ![n, b]⟩ [1] [0] [0] [1] [] [])
    (wf2 : DotDims.WF (⟨2, ![n, b]⟩ : Shape) ⟨2, ![b, c]⟩ ⟨2, ![n, c]⟩ [1] [0] [0] [1] [] [])
    (hr1 : (⟨2, ![1, b]⟩ : Shape).BroadcastsInDim ⟨2, ![n, b]⟩ ![0, 1]) (hr2 : (⟨2, ![1, c]⟩ : Shape).BroadcastsInDim ⟨2, ![n, c]⟩ ![0, 1])
    (hz1 : (⟨0, ![]⟩ : Shape).BroadcastsInDim ⟨2, ![n, b]⟩ (![] : Fin 0 → Fin 2))
    (hz2 : (⟨0, ![]⟩ : Shape).BroadcastsInDim ⟨2, ![n, c]⟩ (![] : Fin 0 → Fin 2))
    (X AGG : FVec Ideal ⟨2, ![n, a]⟩ .f32) (Wa : FVec Ideal ⟨2, ![a, b]⟩ .f32) (ba : FVec Ideal ⟨2, ![1, b]⟩ .f32)
    (Wb : FVec Ideal ⟨2, ![b, c]⟩ .f32) (bb : FVec Ideal ⟨2, ![1, c]⟩ .f32) :
    maximumf (addf (FloatOps.dotGeneral (LibPlainDot.dims wf2) none .single
          (maximumf (addf (FloatOps.dotGeneral (LibPlainDot.dims wf1) none .single (addf X AGG) Wa) (broadcastInDim ⟨2, ![n, b]⟩ ![0, 1] hr1 ba))
            (broadcastInDim ⟨2, ![n, b]⟩ ![] hz1 (constant (F := Ideal) ⟨0, ![]⟩ .f32 0x00000000#32)))
          Wb) (broadcastInDim ⟨2, ![n, c]⟩ ![0, 1] hr2 bb))
        (broadcastInDim ⟨2, ![n, c]⟩ ![] hz2 (constant (F := Ideal) ⟨0, ![]⟩ .f32 0x00000000#32))
      = conv true X AGG Wa ba Wb bb := by
  rw [host_eq_conv wf1 wf2 hr1 hr2 hz1 X AGG Wa ba Wb bb]
  funext i
  show max (conv false X AGG Wa ba Wb bb i) (broadcastInDim ⟨2, ![n, c]⟩ ![] hz2 (constant (F := Ideal) ⟨0, ![]⟩ .f32 0x00000000#32) i) = _
  rw [bcastScalar_apply (constant (F := Ideal) ⟨0, ![]⟩ .f32 0x00000000#32) hz2 i]
  rfl

end Cert.GinConv

end
-- ==== Proof.RefValue.lean ====
/-
  The reference's result, layer by layer.

  The reference computes, stage by stage on whole arrays, X + agg(X), a `dot_general` with the first weights, the
  bias row broadcast over the rows, the clamp at the broadcast zero, a second `dot_general`, its bias — and the outer
  clamp —; then the same on the clamped result, without a closing clamp. Each of the two groups of stages is the layer
  of Layers.lean applied to the group's inputs (HostConv.lean reads the host's spelling entry by entry); the neighbour
  sums stay the unopened terms the stages name.
-/
import proofs.«171460_j74483322847411_1_alg».proof.Proof.Gen.ReferenceIdeal.Read
import proofs.«171460_j74483322847411_1_alg».proof.Proof.HostConv
import proofs.«171460_j74483322847411_1_alg».proof.Proof.Layers

set_option maxRecDepth 16384

noncomputable section

namespace Cert.ReferenceIdeal.RefValue

open Idealize.ShloMosaic Cert.ReferenceIdeal Cert.ReferenceIdeal.Gen Cert.ReferenceIdeal.Read

/-- The first convolution and the clamp after it: the first layer of X, its neighbour sums, the weights and the bias
    rows. -/
theorem layer1_eq (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal)) :
    val_main_v26 (F := Ideal) x0 x1 x2 x3 x4 x5
      = GinConv.layer1 x0 (val_main_v13 (F := Ideal) x0 x1) x2 (val_main_v16 (F := Ideal) x3) x4 (val_main_v22 (F := Ideal) x5) := by
  unfold GinConv.layer1
  exact GinConv.host_relu_eq_conv dot_S50000x128_S128x256_S50000x256_1_0_0_1_n_n_wf dot_S50000x256_S256x256_S50000x256_1_0_0_1_n_n_wf
    bcast_S1x256_S50000x256_0_1 bcast_S1x256_S50000x256_0_1 bcast_S_S50000x256 bcast_S_S50000x256
    x0 (val_main_v13 (F := Ideal) x0 x1) x2 (val_main_v16 (F := Ideal) x3) x4 (val_main_v22 (F := Ideal) x5)

/-- The second convolution: the second layer of the clamped first result H, H's neighbour sums, the weights and the
    bias rows. -/
theorem layer2_eq (x0 : (⟨S50000x128, .f32⟩ : BufTy).Contents (Elt Ideal)) (x1 : (⟨S2x640000, .i32⟩ : BufTy).Contents (Elt Ideal))
    (x2 : (⟨S128x256, .f32⟩ : BufTy).Contents (Elt Ideal)) (x3 : (⟨S256, .f32⟩ : BufTy).Contents (Elt Ideal))
    (x4 : (⟨S256x256, .f32⟩ : BufTy).Contents (Elt Ideal)) (x5 : (⟨S256, .f32⟩ : BufTy).Contents (Elt Ideal))
    (x6 : (⟨S256x256, .f32⟩ : BufTy).Contents (Elt Ideal)) (x7 : (⟨S256, .f32⟩ : BufTy).Contents (Elt Ideal))
    (x8 : (⟨S256x128, .f32⟩ : BufTy).Contents (Elt Ideal)) (x9 : (⟨S128, .f32⟩ : BufTy).Contents (Elt Ideal)) :
    val_main_v47 (F := Ideal) x0 x1 x2 x3 x4 x5 x6 x7 x8 x9
      = GinConv.layer2 (val_main_v26 (F := Ideal) x0 x1 x2 x3 x4 x5) (val_main_v36 (F := Ideal) x0 x1 x2 x3 x4 x5) x6
          (val_main_v39 (F := Ideal) x7) x8 (val_main_v45 (F := Ideal) x9) := by
  unfold GinConv.layer2
  exact GinConv.host_eq_conv dot_S50000x256_S256x256_S50000x256_1_0_0_1_n_n_wf dot_S50000x256_S256x128_S50000x128_1_0_0_1_n_n_wf
    bcast_S1x256_S50000x256_0_1 bcast_S1x128_S50000x128_0_1 bcast_S_S50000x256
    (val_main_v26 (F := Ideal) x0 x1 x2 x3 x4 x5) (val_main_v36 (F := Ideal) x0 x1 x2 x3 x4 x5) x6
    (val_main_v39 (F := Ideal) x7) x8 (val_main_v45 (F := Ideal) x9)

end Cert.ReferenceIdeal.RefValue

end
-- ==== Proof.LibBiasRow.lean ====
/-
  A vector of n entries laid out as a row [1, n] — two spellings of one array.

  jnp writes `b[None, :]` either as `broadcast_in_dim` with the vector's axis sent to axis 1, or as a reshape
  [n] → [1, n]. Both read, at (0, i), the vector at i: the broadcast because axis 1 of the result is the
  vector's axis and axis 0 is new, the reshape because row-major position 0·n + i is position i. So the two
  rows are equal as arrays, for every n and every element type.
-/
import Idealize.ShloMosaic.PureOps.Ideal
import Idealize.ShloMosaic.Lib.Pipeline.Value
import Idealize.ShloMosaic.Lib.ValueIdx
import Idealize.ShloMosaic.Lib.ValueLayout

noncomputable section

namespace Cert.LibBiasRow

open Idealize.ShloMosaic Idealize.ShloMosaic.ValueIdx

/-- A vector [n] broadcast in dimension 1 to a row [1, n] is the vector reshaped to [1, n]. -/
theorem bcastRow_eq_reshape {n : Nat} {α : Type} (x : (⟨1, ![n]⟩ : Shape).Idx → α)
    (hb : (⟨1, ![n]⟩ : Shape).BroadcastsInDim ⟨2, ![1, n]⟩ ![1])
    (hs : (⟨1, ![n]⟩ : Shape).ShapeCasts ⟨2, ![1, n]⟩) :
    broadcastInDim ⟨2, ![1, n]⟩ ![1] hb x = shapeCast ⟨2, ![1, n]⟩ x hs := by
  funext j
  obtain ⟨u, i, rfl⟩ : ∃ (u : Fin 1) (i : Fin n), j = ix2 u i := ⟨j 0, j 1, eq_ix2 j⟩
  rw [shapeCast_a_1a_apply]
  refine broadcastInDim_apply _ hb x _ (ix1 i) (fun a => ?_)
  match a with
  | ⟨0, _⟩ =>
    show i.val = if n = 1 then 0 else i.val
    have := i.isLt
    split <;> omega

end Cert.LibBiasRow

end
-- ==== Proof.Bridge.lean ====
/-
  The two programs compute one function of the arguments.

  The reference's result is the second layer of H, agg(H), the second weights and bias rows, with H the first layer of
  X, agg(X), the first weights and bias rows (RefValue.lean); the kernel program's is the same expression
  (KernelValue.lean). What is left to identify is the spelling of the parts both sides leave unopened: the neighbour
  sums — on both sides the same gather of rows at the wrapped source ids scatter-added at the destination ids into
  zeros, term for term — and the bias rows, which the reference makes by `broadcast_in_dim` (dims = [1]) and the kernel
  by a reshape [n] → [1, n]: one array (LibBiasRow.lean). No law of arithmetic is used, so nothing needs the inputs
  finite.
-/
import proofs.«171460_j74483322847411_1_alg».proof.Proof.KernelValue
import proofs.«171460_j74483322847411_1_alg».proof.Proof.RefValue
import proofs.«171460_j74483322847411_1_alg».proof.Proof.LibBiasRow

set_option maxRecDepth 16384

noncomputable section

namespace Cert.Proof.Bridge

open Idealize.ShloMosaic
open Cert.ReferenceIdeal.Read (val_main_v13 val_main_v16 val_main_v22 val_main_v26 val_main_v36 val_main_v39 val_main_v45 val_main_v47)

/-- A [256] bias as a row: the reference's broadcast is the kernel's reshape. -/
theorem row256 (v : (⟨Cert.ReferenceIdeal.S256, .f32⟩ : BufTy).Contents (Elt Ideal)) :
    broadcastInDim Cert.ReferenceIdeal.S1x256 ![1] Cert.ReferenceIdeal.Gen.bcast_S256_S1x256_1 v
      = shapeCast Cert.KernelIdeal.S1x256 v Cert.KernelIdeal.Gen.shapeCasts_S256_S1x256 :=
  LibBiasRow.bcastRow_eq_reshape v _ _

/-- A [128] bias as a row. -/
theorem row128 (v : (⟨Cert.ReferenceIdeal.S128, .f32⟩ : BufTy).Contents (Elt Ideal)) :
    broadcastInDim Cert.ReferenceIdeal.S1x128 ![1] Cert.ReferenceIdeal.Gen.bcast_S128_S1x128_1 v
      = shapeCast Cert.KernelIdeal.S1x128 v Cert.KernelIdeal.Gen.shapeCasts_S128_S1x128 :=
  LibBiasRow.bcastRow_eq_reshape v _ _

/-- The neighbour sums of the input features: the two programs' host terms are the same term. -/
theorem agg1_eq (x0 : (⟨Cert.ReferenceIdeal.S50000x128, .f32⟩ : BufTy).Contents (Elt Ideal))
    (x1 : (⟨Cert.ReferenceIdeal.S2x640000, .i32⟩ : BufTy).Contents (Elt Ideal)) :
    val_main_v13 (F := Ideal) x0 x1 = Cert.KernelIdeal.Closed.agg1 x0 x1 := rfl

/-- The neighbour sums of the first layer's result, likewise. -/
theorem agg2_eq (x0 : (⟨Cert.ReferenceIdeal.S50000x128, .f32⟩ : BufTy).Contents (Elt Ideal))
    (x1 : (⟨Cert.ReferenceIdeal.S2x640000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal))
    (x4 : (⟨Cert.ReferenceIdeal.S256x256, .f32⟩ : BufTy).Contents (Elt Ideal)) (x5 : (⟨Cert.ReferenceIdeal.S256, .f32⟩ : BufTy).Contents (Elt Ideal)) :
    val_main_v36 (F := Ideal) x0 x1 x2 x3 x4 x5 = Cert.KernelIdeal.Closed.agg2 (val_main_v26 (F := Ideal) x0 x1 x2 x3 x4 x5) x1 := rfl

/-- THE REFERENCE'S RESULT IS THE KERNEL PROGRAM'S, as functions of the ten arguments. -/
theorem ref_eq_result (x0 : (⟨Cert.ReferenceIdeal.S50000x128, .f32⟩ : BufTy).Contents (Elt Ideal))
    (x1 : (⟨Cert.ReferenceIdeal.S2x640000, .i32⟩ : BufTy).Contents (Elt Ideal))
    (x2 : (⟨Cert.ReferenceIdeal.S128x256, .f32⟩ : BufTy).Contents (Elt Ideal)) (x3 : (⟨Cert.ReferenceIdeal.S256, .f32⟩ : BufTy).Contents (Elt Ideal))
    (x4 : (⟨Cert.ReferenceIdeal.S256x256, .f32⟩ : BufTy).Contents (Elt Ideal)) (x5 : (⟨Cert.ReferenceIdeal.S256, .f32⟩ : BufTy).Contents (Elt Ideal))
    (x6 : (⟨Cert.ReferenceIdeal.S256x256, .f32⟩ : BufTy).Contents (Elt Ideal)) (x7 : (⟨Cert.ReferenceIdeal.S256, .f32⟩ : BufTy).Contents (Elt Ideal))
    (x8 : (⟨Cert.ReferenceIdeal.S256x128, .f32⟩ : BufTy).Contents (Elt Ideal)) (x9 : (⟨Cert.ReferenceIdeal.S128, .f32⟩ : BufTy).Contents (Elt Ideal)) :
    val_main_v47 (F := Ideal) x0 x1 x2 x3 x4 x5 x6 x7 x8 x9 = Cert.KernelIdeal.Closed.result x0 x1 x2 x3 x4 x5 x6 x7 x8 x9 := by
  rw [Cert.ReferenceIdeal.RefValue.layer2_eq, agg2_eq, Cert.ReferenceIdeal.RefValue.layer1_eq, agg1_eq]
  unfold val_main_v16 val_main_v22 val_main_v39 val_main_v45
  rw [row256 x3, row256 x5, row256 x7, row128 x9]
  rfl

end Cert.Proof.Bridge

end
-- ==== Proof.lean ====
/-
  A two-layer GIN forward pass: the fused Pallas kernels against the jnp reference, over the extended reals.

  Both programs compute, for node features X [50000, 128] and an edge list,
      H   = max( max((X + agg(X)) · W1a + b1a, 0) · W1b + b1b, 0 ),
      out =      max((H + agg(H)) · W2a + b2a, 0) · W2b + b2b,
  where agg sums, into each node, the rows of its neighbours (a gather at the source ids scatter-added at the
  destination ids). The kernel program leaves the gather and scatter-add to the host and fuses each convolution's
  add, two matrix products, biases and clamps into one kernel over 25 blocks of 2000 rows, with the weights stored in a
  shorter float format and the products accumulated from zero; the reference does the same arithmetic stage by stage on
  whole arrays. Over the extended reals a change of float format is the identity, a product into a zero accumulator and
  a `dot_general` are the same textbook sum, and a convolution's row depends on the same row of its inputs only, so the
  blocks are blocks of one array: the two results are the same expression, operation for operation, and no law that
  needs finite entries is used (the precondition is never opened).

  The modules: Spec (the convolution at an entry; the kernel body's arithmetic read against it), HostConv (the host's
  spelling read against it), Layers (the two layers at this network's extents), KernelBody (what a grid point stores),
  KernelBlocks0 / KernelBlocks1 (each kernel's output array from its blocks), KernelRun (the program's run with its
  result named), KernelValue (the result as a function of the arguments), RefValue (the reference's stages as the two
  layers), Bridge (the two expressions are one). The frames of the two kernel programs and the reference's run are the
  generated modules'.
-/
import proofs.«171460_j74483322847411_1_alg».proof.Defs
import proofs.«171460_j74483322847411_1_alg».proof.Proof.Gen.Kernel
import proofs.«171460_j74483322847411_1_alg».proof.Proof.Gen.Kernel.Skeleton
import proofs.«171460_j74483322847411_1_alg».proof.Proof.Gen.Kernel.Launch
import proofs.«171460_j74483322847411_1_alg».proof.Proof.Gen.Kernel.Points
import proofs.«171460_j74483322847411_1_alg».proof.Proof.Gen.Kernel.Frame
import proofs.«171460_j74483322847411_1_alg».proof.Proof.Gen.KernelIdeal
import proofs.«171460_j74483322847411_1_alg».proof.Proof.Gen.KernelIdeal.Skeleton
import proofs.«171460_j74483322847411_1_alg».proof.Proof.Gen.KernelIdeal.Launch
import proofs.«171460_j74483322847411_1_alg».proof.Proof.Gen.KernelIdeal.Points
import proofs.«171460_j74483322847411_1_alg».proof.Proof.Gen.KernelIdeal.Frame
import proofs.«171460_j74483322847411_1_alg».proof.Proof.Gen.ReferenceIdeal
import proofs.«171460_j74483322847411_1_alg».proof.Proof.Gen.Pre_finite_inputs
import proofs.«171460_j74483322847411_1_alg».proof.Proof.Gen.ReferenceIdeal.Run
import proofs.«171460_j74483322847411_1_alg».proof.Proof.Gen.ReferenceIdeal.Read
import proofs.«171460_j74483322847411_1_alg».proof.Proof.Bridge
import Idealize.ShloMosaic.Adequacy
import Idealize.ShloMosaic.Init

noncomputable section

namespace Cert.Proof

open Idealize.ShloMosaic Idealize.ShloMosaic.TcCoe Idealize.SL.Sem

/-- The kernel program as printed runs and leaves its arguments as launched. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the two-layer network's output of those
    arguments at their result buffers: the kernel program by its named run and the value of its regions, the reference
    by its generated run, whose term is the same function (Bridge). -/
theorem algebraic : Cert.algebraic_KernelIdeal_ReferenceIdeal := by
  intro m ρ m' ρ' _ hagree
  refine ⟨fun c => Cert.KernelIdeal.Closed.result
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Closed.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9⟩ := hagree c
  rw [Cert.ReferenceIdeal.Read.val_main_v47_eq, h0, h1, h2, h3, h4, h5, h6, h7, h8, h9]
  exact Bridge.ref_eq_result _ _ _ _ _ _ _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
